-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S100000x256 .f32) (main_arg1 : IVec S2x1600000 32) (main_arg2 : FVec F S128x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S100000x256 : Shape := ⟨2, ![100000, 256]⟩
abbrev S2x1600000 : Shape := ⟨2, ![2, 1600000]⟩
abbrev S128x256 : Shape := ⟨2, ![128, 256]⟩
abbrev S256x128 : Shape := ⟨2, ![256, 128]⟩
abbrev S100000x128 : Shape := ⟨2, ![100000, 128]⟩
abbrev S2000x256 : Shape := ⟨2, ![2000, 256]⟩
abbrev S2000x128 : Shape := ⟨2, ![2000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩

abbrev nBuf : Space → Nat
  | .hbm => 59
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S256x128, .f32⟩
  | .hbm, ⟨4, _⟩ => ⟨S100000x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  transposes_S128x256_S256x128_1_0 : S128x256.Transposes [1, 0] S256x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  iota_S2000x128_d1_w32 : S2000x128.Iotas .tc 32 [1]
  rotates_S2000x128_d1 : S2000x128.Rotates 1 none
  dot_S2000x256_S256x128_S2000x128_1_0_0_1_n_n_wf : DotDims.WF S2000x256 S256x128 S2000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S256x128 : Shape := ⟨2, ![256, 128]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S64 : Shape := ⟨1, ![64]⟩
abbrev S128 : Shape := ⟨1, ![128]⟩
abbrev S1x128 : Shape := ⟨2, ![1, 128]⟩
abbrev S100000x64 : Shape := ⟨2, ![100000, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S256x128, .f32⟩
  | .hbm, ⟨4, _⟩ => ⟨S100000x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S100000x64, .f32⟩
  | .hbm, ⟨69, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_v0 : Ref sig .tc := ⟨.hbm, 67, rfl⟩
abbrev main_call1_v1 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  transposes_S128x256_S256x128_1_0 : S128x256.Transposes [1, 0] S256x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S64 : S_.BroadcastsInDim S64 (![] : Fin 0 → Fin S64.rank)
  concatenates_S64_S64_S128_d0 : Shape.Concatenates [S64, S64] S128 0
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S100000x64_0_64 : S100000x128.Slices ![0, 64] S100000x64
  slices_S100000x128_S100000x64_0_0 : S100000x128.Slices ![0, 0] S100000x64
  concatenates_S100000x64_S100000x64_S100000x128_d1 : Shape.Concatenates [S100000x64, S100000x64] S100000x128 1
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.RefRunValue.lean ====
/-
  The reference's run, with its result stated over its stages.

  The reference's @main is a straight line of 67 host operations, so every weakly fair execution terminates with each buffer at
  the fold of the operations' results over the launch contents (the library's theorem for such programs).  The fold is read in
  three stretches: the first 55 operations (the dense transform and the message passing) leave the aggregate at the stage
  `val_main_v41` of the arguments; the next 8 build the multiplier (64 ones, 64 negated ones, broadcast over the rows) without
  touching the aggregate; the last 4 multiply the two and roll the channels by half.  Composed, the result buffer ends at the
  last stage `val_main_v49` of the three arguments, which are left unchanged.
-/
import proofs.«126326_j15779709845910_1_alg».proof.Proof.RefRun
import proofs.«126326_j15779709845910_1_alg».proof.Proof.RefRead
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running one list of operations after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 1 … 55: the dense transform, the degrees and edge weights, the messages and their aggregation. -/
abbrev transformAndAggregate : List (HloOp τ sig (Elt F)) :=
  [ unary main_arg2 main_v0 ((transpose S256x128 [1, 0] · transposes_S128x256_S256x128_1_0) : (⟨S128x256, .f32⟩ : BufTy).Contents (Elt F) → (⟨S256x128, .f32⟩ : BufTy).Contents (Elt F)),
    binary main_arg0 main_v0 main_v1 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    nullary main_cst (constant S_ .f32 0x3F800000#32),
    unary main_cst main_v6 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    unary main_v5 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v10 (broadcastInDim S100000 ![] bcast_S_S100000 : (⟨S_, .f32⟩ : BufTy).Contents (Elt F) → (⟨S100000, .f32⟩ : BufTy).Contents (Elt F)),
    binary main_v9 main_v10 main_v11 (cmpf .ogt : (⟨S100000, .f32⟩ : BufTy).Contents (Elt F) → (⟨S100000, .f32⟩ : BufTy).Contents (Elt F) → (⟨S100000, .i1⟩ : BufTy).Contents (Elt F)),
    unary main_v9 main_v12 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v11) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v3 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v16 (broadcastInDim S1600000 ![] bcast_S_S1600000 : (⟨S_, .i32⟩ : BufTy).Contents (Elt F) → (⟨S1600000, .i32⟩ : BufTy).Contents (Elt F)),
    binary main_v3 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v3 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_4 (constantI S_ 32 0#32),
    unary main_c_4 main_v21 (broadcastInDim S1600000 ![] bcast_S_S1600000 : (⟨S_, .i32⟩ : BufTy).Contents (Elt F) → (⟨S1600000, .i32⟩ : BufTy).Contents (Elt F)),
    binary main_v5 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v23 (broadcastInDim S1600000 ![] bcast_S_S1600000 : (⟨S_, .i32⟩ : BufTy).Contents (Elt F) → (⟨S1600000, .i32⟩ : BufTy).Contents (Elt F)),
    binary main_v5 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v5 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v13 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v20 main_v27 main_v28 (mulf : (⟨S1600000, .f32⟩ : BufTy).Contents (Elt F) → (⟨S1600000, .f32⟩ : BufTy).Contents (Elt F) → (⟨S1600000, .f32⟩ : BufTy).Contents (Elt F)),
    nullary main_c_6 (constantI S_ 32 0#32),
    unary main_c_6 main_v29 (broadcastInDim S1600000 ![] bcast_S_S1600000 : (⟨S_, .i32⟩ : BufTy).Contents (Elt F) → (⟨S1600000, .i32⟩ : BufTy).Contents (Elt F)),
    binary main_v3 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v31 (broadcastInDim S1600000 ![] bcast_S_S1600000 : (⟨S_, .i32⟩ : BufTy).Contents (Elt F) → (⟨S1600000, .i32⟩ : BufTy).Contents (Elt F)),
    binary main_v3 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_v3 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v1 main_v34 main_v35 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v28 main_v36 (broadcastInDim S1600000x1 ![0] bcast_S1600000_S1600000x1_0 : (⟨S1600000, .f32⟩ : BufTy).Contents (Elt F) → (⟨S1600000x1, .f32⟩ : BufTy).Contents (Elt F)),
    unary main_v36 main_v37 (broadcastInDim S1600000x128 ![0, 1] bcast_S1600000x1_S1600000x128_0_1 : (⟨S1600000x1, .f32⟩ : BufTy).Contents (Elt F) → (⟨S1600000x128, .f32⟩ : BufTy).Contents (Elt F)),
    binary main_v35 main_v37 main_v38 (mulf : (⟨S1600000x128, .f32⟩ : BufTy).Contents (Elt F) → (⟨S1600000x128, .f32⟩ : BufTy).Contents (Elt F) → (⟨S1600000x128, .f32⟩ : BufTy).Contents (Elt F)),
    nullary main_cst_8 (constant S_ .f32 0x00000000#32),
    unary main_cst_8 main_v39 (broadcastInDim S100000x128 ![] bcast_S_S100000x128 : (⟨S_, .f32⟩ : BufTy).Contents (Elt F) → (⟨S100000x128, .f32⟩ : BufTy).Contents (Elt F)),
    unary main_v5 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 56 … 63: the per-channel multiplier, broadcast over the rows. -/
abbrev buildMultiplier : List (HloOp τ sig (Elt F)) :=
  [ nullary main_cst_9 (constant S_ .f32 0x3F800000#32),
    unary main_cst_9 main_v42 (broadcastInDim S64 ![] bcast_S_S64 : (⟨S_, .f32⟩ : BufTy).Contents (Elt F) → (⟨S64, .f32⟩ : BufTy).Contents (Elt F)),
    nullary main_cst_10 (constant S_ .f32 0x3F800000#32),
    unary main_cst_10 main_v43 (broadcastInDim S64 ![] bcast_S_S64 : (⟨S_, .f32⟩ : BufTy).Contents (Elt F) → (⟨S64, .f32⟩ : BufTy).Contents (Elt F)),
    unary main_v43 main_v44 (Host.negf : (⟨S64, .f32⟩ : BufTy).Contents (Elt F) → (⟨S64, .f32⟩ : BufTy).Contents (Elt F)),
    binary main_v42 main_v44 main_v45 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)) ]

/-- Operations 64 … 67: the product with the multiplier and the roll of the channels by half. -/
abbrev scaleAndRoll : List (HloOp τ sig (Elt F)) :=
  [ binary main_v41 main_v47 main_v48 (mulf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v48) (TRef.of (T := ⟨S100000x64, .f32⟩) main_call1_v0) (extractStridedSlice S100000x64 ![0, 64] · slices_S100000x128_S100000x64_0_64),
    TRef.unary (TRef.of (T := ⟨S100000x128, .f32⟩) main_v48) (TRef.of (T := ⟨S100000x64, .f32⟩) main_call1_v1) (extractStridedSlice S100000x64 ![0, 0] · slices_S100000x128_S100000x64_0_0),
    TRef.binary (TRef.of (T := ⟨S100000x64, .f32⟩) main_call1_v0) (TRef.of (T := ⟨S100000x64, .f32⟩) main_call1_v1) (TRef.of (T := ⟨S100000x128, .f32⟩) main_v49) (fun a b => concatenate S100000x128 1 [⟨S100000x64, a⟩, ⟨S100000x64, b⟩] concatenates_S100000x64_S100000x64_S100000x128_d1) ]

set_option maxRecDepth 8192 in
theorem ops_split : (ops : List (HloOp τ sig (Elt F))) = transformAndAggregate ++ (buildMultiplier ++ scaleAndRoll) := rfl

set_option maxRecDepth 8192 in
set_option maxHeartbeats 4000000 in
/-- After the first stretch the aggregate's buffer holds the stage `val_main_v41` of the three arguments. -/
theorem aggregate_of (V : Valuation τ sig (Elt F)) :
    after transformAndAggregate V (Proc.devRef .tc main_v41)
      = val_main_v41 (F := F) (V (Proc.devRef .tc main_arg0)) (V (Proc.devRef .tc main_arg1)) (V (Proc.devRef .tc main_arg2)) := by
  after_results_simp
  rfl

/-- The second stretch leaves the aggregate's buffer alone, -/
theorem multiplier_keeps (W : Valuation τ sig (Elt F)) :
    after buildMultiplier W (Proc.devRef .tc main_v41) = W (Proc.devRef .tc main_v41) := by
  after_results

/-- and leaves the multiplier's buffer at the stage `val_main_v47`. -/
theorem multiplier_of (W : Valuation τ sig (Elt F)) :
    after buildMultiplier W (Proc.devRef .tc main_v47) = val_main_v47 (F := F) := by
  after_results
  rfl

/-- The last stretch: the product's two halves, swapped. -/
theorem rolled_of (W : Valuation τ sig (Elt F)) :
    after scaleAndRoll W (Proc.devRef .tc main_v49)
      = concatenate S100000x128 1
          [⟨S100000x64, extractStridedSlice S100000x64 ![0, 64] (mulf (W (Proc.devRef .tc main_v41)) (W (Proc.devRef .tc main_v47))) slices_S100000x128_S100000x64_0_64⟩,
           ⟨S100000x64, extractStridedSlice S100000x64 ![0, 0] (mulf (W (Proc.devRef .tc main_v41)) (W (Proc.devRef .tc main_v47))) slices_S100000x128_S100000x64_0_0⟩]
          concatenates_S100000x64_S100000x64_S100000x128_d1 := by
  after_results
  rfl

/-- The whole fold at the result buffer is the last stage of the three arguments. -/
theorem result_of (V : Valuation τ sig (Elt F)) :
    after ops V (Proc.devRef .tc main_v49)
      = val_main_v49 (F := F) (V (Proc.devRef .tc main_arg0)) (V (Proc.devRef .tc main_arg1)) (V (Proc.devRef .tc main_arg2)) := by
  rw [ops_split, after_append, after_append, rolled_of, multiplier_of, multiplier_keeps, aggregate_of]
  rfl

variable (m : (ℓ : Loc nD τ sig) → Buf (Elt F) ℓ) (ρ : Dev nD → PrngReg)

set_option maxRecDepth 8192 in
set_option maxHeartbeats 4000000 in
/-- On every device, from any memory with zero counters: every weakly fair execution of the reference's @main terminates with the
    result buffer at the last stage of the three arguments, and the arguments unchanged. -/
theorem run : θ_run defs (onTc (τ := τ) (main (F := F))) ⟨m, fun _ => 0, ρ⟩ fun r => ∀ c : Dev nD,
      r.2.mem ((c.tc : Thread nD τ).loc main_v49)
        = val_main_v49 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v49).trans (result_of (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunValue

end
-- ==== Proof.Mid.lean ====
/-
  The message-passing step that both programs perform with the same host operations, as ONE function `Mid h e` of the
  transformed features `h : [100000, 128]` and the edge list `e : [2, 1600000]`.

  With `row = e[0]`, `col = e[1]`: the in-degree `deg = scatter-add of ones at col`, `d = where(deg > 0, rsqrt deg, 0)`, the edge
  weight `ew = d[row] · d[col]` (negative indices wrapped by adding 100000), the messages `h[row] · ew` broadcast over the
  channels, and their scatter-add at `col` into a zero array.  `Aggregate h row col d` is the last part, from `h`, the two index
  vectors and the normalising vector `d`; `Mid` feeds it the reference's own stages for `row`, `col` and `d`, which depend on the
  edge list only.  Neither is ever opened at an index: each program is shown to apply the same function to its own `h`.
-/
import proofs.«126326_j15779709845910_1_alg».proof.Proof.RefRead

set_option maxRecDepth 8192

noncomputable section

namespace Cert.Mid

open Idealize.ShloMosaic Cert.ReferenceIdeal Cert.ReferenceIdeal.Gen Cert.ReferenceIdeal.ReadP

/-- An index vector with its negative entries wrapped (100000 added), as a column of start indices. -/
def wrapped (r : (⟨S1600000, .i32⟩ : BufTy).Contents (Elt Ideal)) : (⟨S1600000x1, .i32⟩ : BufTy).Contents (Elt Ideal) :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- Gather the rows of `h` at `row`, scale row `k` by `d[row k] · d[col k]`, scatter-add the rows at `col` into zeros. -/
def Aggregate (h : (⟨S100000x128, .f32⟩ : BufTy).Contents (Elt Ideal)) (row col : (⟨S1600000, .i32⟩ : BufTy).Contents (Elt Ideal))
    (d : (⟨S100000, .f32⟩ : BufTy).Contents (Elt Ideal)) : (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 col)
    (mulf (F := Ideal) (φ := .f32) (Host.gather gather_S100000x128_S1600000x1_S1600000x128_1_0_n_n_0_1_1128 h (wrapped row))
      (broadcastInDim S1600000x128 ![0, 1] bcast_S1600000x1_S1600000x128_0_1
        (broadcastInDim S1600000x1 ![0] bcast_S1600000_S1600000x1_0
          (mulf (F := Ideal) (φ := .f32) (Host.gather gather_S100000_S1600000x1_S1600000_n_0_n_n_0_1_1 d (wrapped row))
            (Host.gather gather_S100000_S1600000x1_S1600000_n_0_n_n_0_1_1 d (wrapped col))))))

/-- The whole step, from the transformed features and the edge list. -/
def Mid (h : (⟨S100000x128, .f32⟩ : BufTy).Contents (Elt Ideal)) (e : (⟨S2x1600000, .i32⟩ : BufTy).Contents (Elt Ideal)) :
    (⟨S100000x128, .f32⟩ : BufTy).Contents (Elt Ideal) :=
  Aggregate h (val_main_v3 (F := Ideal) e) (val_main_v5 (F := Ideal) e) (val_main_v13 (F := Ideal) e)

/-- The reference's aggregated array is `Mid` of its own transformed features. -/
theorem ref_agg (x0 : (⟨S100000x256, .f32⟩ : BufTy).Contents (Elt Ideal)) (x1 : (⟨S2x1600000, .i32⟩ : BufTy).Contents (Elt Ideal))
    (x2 : (⟨S128x256, .f32⟩ : BufTy).Contents (Elt Ideal)) :
    val_main_v41 (F := Ideal) x0 x1 x2 = Mid (val_main_v1 (F := Ideal) x0 x2) x1 := rfl

end Cert.Mid

end
-- ==== Proof.Spec.lean ====
/-
  The mathematics of the certificate, with no program in sight.

  Both programs compute, from node features `x : [100000, 256]`, a weight `w : [128, 256]` and an edge list:
    1. the dense transform `h = x · wᵀ`, here `Lin x wᵀ` with `wᵀ : [256, 128]`: entry `(p, q)` is `∑ k, x (p, k) · wᵀ (k, q)`;
    2. a normalised gather / scatter-add over the edges, the same host operations in both programs, of `h` and the edge list;
    3. the "complex to real" twist of the aggregated array `a : [100000, 128]`: the second half of the 128 channels is negated
       and the channels are rotated by half, so entry `(p, q)` is `a (p, q') · σ q'` with `q' = (q + 64) mod 128` and
       `σ j = 1` for `j < 64`, `−1` otherwise (`Twist`).
  Over the extended reals a sum is independent of how it is blocked and a change of float format is the identity, so the two
  programs differ only in how steps 1 and 3 are spelt; no algebraic law beyond that is needed.
-/
import Idealize.ShloMosaic.PureOps.Ideal
import Idealize.ShloMosaic.Lib.ValueIdx

noncomputable section

namespace Cert.Spec

open Idealize.ShloMosaic Idealize.ShloMosaic.ValueIdx

/-- The dense transform: `(p, q) ↦ ∑ k, x (p, k) · v (k, q)`. -/
def Lin (x : (⟨2, ![100000, 256]⟩ : Shape).Idx → EReal) (v : (⟨2, ![256, 128]⟩ : Shape).Idx → EReal) :
    (⟨2, ![100000, 128]⟩ : Shape).Idx → EReal :=
  fun i => ∑ k : Fin 256, x (ix2 (i 0) k) * v (ix2 k (i 1))

/-- The channel that lands on channel `q` after the rotation by half. -/
def flip (q : Fin 128) : Fin 128 := ⟨(q.val + 64) % 128, Nat.mod_lt _ (by decide)⟩

/-- The sign of a channel before the rotation: `+1` on the first half, `−1` on the second. -/
def sgn (j : Fin 128) : EReal :=
  if j.val < 64 then Ideal.ofBits .f32 0x3F800000#32 else Ideal.ofBits .f32 0xBF800000#32

/-- The twist: negate the second half of the channels, then rotate the channels by half. -/
def Twist (a : (⟨2, ![100000, 128]⟩ : Shape).Idx → EReal) : (⟨2, ![100000, 128]⟩ : Shape).Idx → EReal :=
  fun i => a (ix2 (i 0) (flip (i 1))) * sgn (flip (i 1))

theorem Lin_apply (x : (⟨2, ![100000, 256]⟩ : Shape).Idx → EReal) (v : (⟨2, ![256, 128]⟩ : Shape).Idx → EReal)
    (p : Fin 100000) (q : Fin 128) : Lin x v (ix2 p q) = ∑ k : Fin 256, x (ix2 p k) * v (ix2 k q) := rfl

theorem Twist_apply (a : (⟨2, ![100000, 128]⟩ : Shape).Idx → EReal) (p : Fin 100000) (q : Fin 128) :
    Twist a (ix2 p q) = a (ix2 p (flip q)) * sgn (flip q) := rfl

/-- The word `0x3F800000` (sign 0, exponent 127, fraction 0) is the number one. -/
theorem ofBits_pos_one : Ideal.ofBits .f32 0x3F800000#32 = 1 := by
  simp [Ideal.ofBits, Ideal.ieee, -EReal.coe_mul]
  norm_num

/-- The word `0xBF800000` (the same with the sign bit set) is minus one, the negative of the word `0x3F800000`. -/
theorem ofBits_neg_one : Ideal.ofBits .f32 0xBF800000#32 = -(Ideal.ofBits .f32 0x3F800000#32) := by
  rw [ofBits_pos_one]
  simp [Ideal.ofBits, Ideal.ieee, -EReal.coe_mul]
  norm_num

end Cert.Spec

end
-- ==== Proof.RefValue.lean ====
/-
  The reference's result as the composition `Twist (Mid (Lin x wᵀ) e)`.

  The reference computes `h = x · wᵀ` by one `dot_general` (entry `(p, q)` is `∑ k, x (p, k) · wᵀ (k, q)`: `Lin`), aggregates
  it (`Mid`), multiplies channel `j` of the aggregate by `m j`, where `m` is 64 ones followed by 64 negated ones, and rolls the
  channels by 64: the result is the last 64 channels followed by the first 64.  So at channel `q < 64` it reads channel
  `64 + q` (in the negated half), and at channel `q ≥ 64` it reads channel `q − 64` (in the first half): in both cases
  channel `(q + 64) mod 128` with that channel's sign, which is `Twist`.
-/
import proofs.«126326_j15779709845910_1_alg».proof.Proof.RefRead
import proofs.«126326_j15779709845910_1_alg».proof.Proof.Mid
import proofs.«126326_j15779709845910_1_alg».proof.Proof.Spec
import Idealize.ShloMosaic.Lib.Pipeline.Value
import Idealize.ShloMosaic.Lib.ValueIdx

noncomputable section

namespace Cert.RefValue

open Idealize.ShloMosaic Idealize.ShloMosaic.ValueIdx
open Cert.ReferenceIdeal Cert.ReferenceIdeal.Gen Cert.ReferenceIdeal.ReadP Cert.Spec Cert.Mid

/-- The reference's `dot_general` is `Lin` of the features and the transposed weight. -/
theorem ref_lin (x0 : (⟨S100000x256, .f32⟩ : BufTy).Contents (Elt Ideal)) (x2 : (⟨S128x256, .f32⟩ : BufTy).Contents (Elt Ideal)) :
    val_main_v1 (F := Ideal) x0 x2 = Lin x0 (val_main_v0 (F := Ideal) x2) := by
  funext i
  obtain ⟨p, q, rfl⟩ : ∃ (p : Fin 100000) (q : Fin 128), i = ix2 p q := ⟨i 0, i 1, eq_ix2 i⟩
  rw [val_main_v1_apply, Lin_apply]
  refine Finset.sum_congr rfl fun k _ => ?_
  have el : lidx_main_v1 (ix2 p q) k = ix2 p k := funext fun a => Fin.ext (by match a with | ⟨0, _⟩ => rfl | ⟨1, _⟩ => rfl)
  have er : ridx_main_v1 (ix2 p q) k = ix2 k q := funext fun a => Fin.ext (by match a with | ⟨0, _⟩ => rfl | ⟨1, _⟩ => rfl)
  rw [el, er]

/-- The multiplier of channel `j`: one on the first half, minus one on the second. -/
theorem multiplier_apply (j : Fin 128) : val_main_v45 (F := Ideal) (ix1 j) = sgn j := by
  unfold val_main_v45 sgn
  by_cases hj : j.val < 64
  · rw [if_pos hj]
    refine (concatenate_pair_apply_left (t := S128) (s₁ := S64) (s₂ := S64) (0 : Fin 1) (val_main_v42 (F := Ideal)) (val_main_v44 (F := Ideal))
      concatenates_S64_S64_S128_d0 (ix1 j) rfl (ix1 (⟨j.val, hj⟩ : Fin 64))
      (fun b => by match b with | ⟨0, _⟩ => rfl)).trans ?_
    rw [val_main_v42_apply]
    rfl
  · rw [if_neg hj]
    have hj' : j.val - 64 < 64 := by have := j.isLt; omega
    refine (concatenate_pair_apply_right (t := S128) (s₁ := S64) (s₂ := S64) (0 : Fin 1) (val_main_v42 (F := Ideal)) (val_main_v44 (F := Ideal))
      concatenates_S64_S64_S128_d0 (ix1 j) rfl rfl (ix1 (⟨j.val - 64, hj'⟩ : Fin 64))
      (fun b hb => by match b with | ⟨0, _⟩ => exact absurd rfl hb)
      (by show j.val - 64 + 64 = j.val; omega)).trans ?_
    rw [val_main_v44_apply, val_main_v43_apply, ofBits_neg_one]
    rfl

/-- The aggregate times the multiplier, at an entry. -/
theorem scaled_apply (x0 : (⟨S100000x256, .f32⟩ : BufTy).Contents (Elt Ideal)) (x1 : (⟨S2x1600000, .i32⟩ : BufTy).Contents (Elt Ideal))
    (x2 : (⟨S128x256, .f32⟩ : BufTy).Contents (Elt Ideal)) (p : Fin 100000) (j : Fin 128) :
    val_main_v48 (F := Ideal) x0 x1 x2 (ix2 p j) = val_main_v41 (F := Ideal) x0 x1 x2 (ix2 p j) * sgn j := by
  rw [val_main_v48_apply, val_main_v47_apply, val_main_v46_apply]
  have e : idx_main_v46 (idx_main_v47 (ix2 p j)) = ix1 j := funext fun a => Fin.ext (by match a with | ⟨0, _⟩ => rfl)
  rw [e, multiplier_apply]
  rfl

/-- The reference's result is the twist of its aggregate. -/
theorem ref_twist (x0 : (⟨S100000x256, .f32⟩ : BufTy).Contents (Elt Ideal)) (x1 : (⟨S2x1600000, .i32⟩ : BufTy).Contents (Elt Ideal))
    (x2 : (⟨S128x256, .f32⟩ : BufTy).Contents (Elt Ideal)) :
    val_main_v49 (F := Ideal) x0 x1 x2 = Twist (val_main_v41 (F := Ideal) x0 x1 x2) := by
  funext i
  obtain ⟨p, q, rfl⟩ : ∃ (p : Fin 100000) (q : Fin 128), i = ix2 p q := ⟨i 0, i 1, eq_ix2 i⟩
  rw [Twist_apply]
  unfold val_main_v49
  by_cases hq : q.val < 64
  · -- the first 64 channels of the result are channels 64 … 127 of the scaled aggregate
    have hf : flip q = ⟨64 + q.val, by omega⟩ := Fin.ext (by show (q.val + 64) % 128 = 64 + q.val; omega)
    refine (concatenate_pair_apply_left (t := S100000x128) (s₁ := S100000x64) (s₂ := S100000x64) (1 : Fin 2)
      (val_main_call1_v0 (F := Ideal) x0 x1 x2) (val_main_call1_v1 (F := Ideal) x0 x1 x2)
      concatenates_S100000x64_S100000x64_S100000x128_d1 (ix2 p q) rfl
      (ix2 p (⟨q.val, hq⟩ : Fin 64)) (fun b => by match b with | ⟨0, _⟩ => rfl | ⟨1, _⟩ => rfl)).trans ?_
    rw [val_main_call1_v0_apply]
    have e : idx_main_call1_v0 (ix2 p (⟨q.val, hq⟩ : Fin 64)) = ix2 p (flip q) := by
      rw [hf]; exact funext fun a => Fin.ext (by match a with | ⟨0, _⟩ => rfl | ⟨1, _⟩ => rfl)
    rw [e, scaled_apply]
  · -- the last 64 channels of the result are channels 0 … 63 of the scaled aggregate
    have hq' : q.val - 64 < 64 := by have := q.isLt; omega
    have hf : flip q = ⟨q.val - 64, by omega⟩ := Fin.ext (by show (q.val + 64) % 128 = q.val - 64; have := q.isLt; omega)
    refine (concatenate_pair_apply_right (t := S100000x128) (s₁ := S100000x64) (s₂ := S100000x64) (1 : Fin 2)
      (val_main_call1_v0 (F := Ideal) x0 x1 x2) (val_main_call1_v1 (F := Ideal) x0 x1 x2)
      concatenates_S100000x64_S100000x64_S100000x128_d1 (ix2 p q) rfl rfl
      (ix2 p (⟨q.val - 64, hq'⟩ : Fin 64))
      (fun b hb => by match b with | ⟨0, _⟩ => rfl | ⟨1, _⟩ => exact absurd rfl hb)
      (by show q.val - 64 + 64 = q.val; omega)).trans ?_
    rw [val_main_call1_v1_apply]
    have e : idx_main_call1_v1 (ix2 p (⟨q.val - 64, hq'⟩ : Fin 64)) = ix2 p (flip q) := by
      rw [hf]; exact funext fun a => Fin.ext (by match a with | ⟨0, _⟩ => rfl | ⟨1, _⟩ => rfl)
    rw [e, scaled_apply]

/-- The reference's result, as one function of its three arguments. -/
theorem ref_result (x0 : (⟨S100000x256, .f32⟩ : BufTy).Contents (Elt Ideal)) (x1 : (⟨S2x1600000, .i32⟩ : BufTy).Contents (Elt Ideal))
    (x2 : (⟨S128x256, .f32⟩ : BufTy).Contents (Elt Ideal)) :
    val_main_v49 (F := Ideal) x0 x1 x2 = Twist (Mid (Lin x0 (val_main_v0 (F := Ideal) x2)) x1) := by
  rw [ref_twist, ref_agg, ref_lin]

end Cert.RefValue

end
-- ==== Proof.KernelRun.lean ====
/-
  The idealized kernel's run with its result named.

  The program is two kernel regions among stretches of host operations: a list of segments, each entered from the buffer
  contents the one before leaves.  The library's theorem for such a list gives that every weakly fair execution terminates in a
  state whose unscoped buffers hold the last boundary's contents `W6`.  The frame claim keeps of that only the three arguments;
  here the reading is kept at the result buffer too, which holds what the second region's write-backs leave.
-/
import proofs.«126326_j15779709845910_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's contents
    and the arguments as launched. -/
theorem run_result : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunValue

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.RegionLin.lean ====
/-
  The first kernel region, read as a value: whatever the buffers hold when the region is entered, the array it leaves is the
  dense transform `Lin` of the two arrays it reads.

  Grid point `t` (of 50) works on rows `2000 t … 2000 t + 1999`: it loads that block of rows of the left array and the whole right
  array, multiplies them into a zero accumulator, and stores the `[2000, 128]` product, which is written back to rows
  `2000 t …` of the result.  Entry `(r, q)` of the block product is `∑ k, left (2000 t + r, k) · right (k, q)`, which is entry
  `(2000 t + r, q)` of `Lin left right`: every block is the restriction of one whole-array function, and the 50 blocks tile the
  result (row `p` is in block `p / 2000`).
-/
import proofs.«126326_j15779709845910_1_alg».proof.Proof.Gen.KernelIdeal.Frame
import proofs.«126326_j15779709845910_1_alg».proof.Proof.Spec
import proofs.«126326_j15779709845910_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionLin

open Cert.KernelIdeal Cert.KernelIdeal.Gen Cert.Spec

variable (V : (c : Dev nD) → (b : Ref sig .tc) → Buf (Elt Ideal) ((c : Thread nD τ).loc b))

theorem zero_offsets : (![0, 0] : Fin 2 → Nat) = fun _ => 0 := funext fun a => by fin_cases a <;> rfl

/-- The block product at an entry: the contraction over the 256 shared coordinates (the narrowing to bf16 is the identity on
    extended reals, and the accumulator is zero). -/
theorem product_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  refine (Cert.Lib.matmul_plain_zero_apply (M := 2000) (K := 256) (N := 128) none
    (truncf .bf16 x0 bitsLt_bf16_f32) (truncf .bf16 (shapeCast S256x128 x1 shapeCasts_S256x128_S256x128) bitsLt_bf16_f32) p q).trans ?_
  rw [shapeCast_self]
  rfl

/-- The printed index maps over the grid: the left block and the result block are block `t` of rows, the right block is the
    whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `Lin` of the two arrays the region reads. -/
theorem flushed_eq (c : Dev nD) (t : Fin cfg0.N) :
    (dat0 V c).flushed 2 t
      = ((cfg0.win 2).blk t).view.read (Elt Ideal) (Lin (V c main_arg0) (V c main_v0)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  obtain ⟨e0, e1, e2, e3, e4, e5⟩ := index_facts t
  funext j
  obtain ⟨p, q, rfl⟩ : ∃ (p : Fin 2000) (q : Fin 128), j = ix2 p q := ⟨j 0, j 1, eq_ix2 j⟩
  refine (product_apply (iblk0 V c 0 t) (iblk0 V c 1 t) p q).trans ?_
  have hN : cfg0.N = 50 := N_0
  have hp : 2000 * t.val + p.val < 100000 := by have := t.isLt; have := p.isLt; omega
  -- row `p` of block `t` is row `2000 t + p` of the array, in the left operand and in the result; the right block is the array
  have hout : ((cfg0.win 2).blk t).view.emb (ix2 p q) = ix2 (⟨2000 * t.val + p.val, hp⟩ : Fin 100000) q := by
    funext a; apply Fin.ext
    match a with
    | ⟨0, _⟩ => show win0_2.index t (0 : Fin 2) * 2000 + 1 * p.val = 2000 * t.val + p.val; omega
    | ⟨1, _⟩ => show win0_2.index t (1 : Fin 2) * 128 + 1 * q.val = q.val; omega
  have hleft : ∀ k : Fin 256, ((cfg0.win 0).blk t).view.emb (ix2 p k) = ix2 (⟨2000 * t.val + p.val, hp⟩ : Fin 100000) k := by
    intro k; funext a; apply Fin.ext
    match a with
    | ⟨0, _⟩ => show win0_0.index t (0 : Fin 2) * 2000 + 1 * p.val = 2000 * t.val + p.val; omega
    | ⟨1, _⟩ => show win0_0.index t (1 : Fin 2) * 256 + 1 * k.val = k.val; omega
  have hright : ∀ k : Fin 256, ((cfg0.win 1).blk t).view.emb (ix2 k q) = ix2 k q := by
    intro k; funext a; apply Fin.ext
    match a with
    | ⟨0, _⟩ => show win0_1.index t (0 : Fin 2) * 256 + 1 * k.val = k.val; omega
    | ⟨1, _⟩ => show win0_1.index t (1 : Fin 2) * 128 + 1 * q.val = q.val; omega
  refine Eq.trans ?_ (congrArg (Lin (V c main_arg0) (V c main_v0)) hout).symm
  rw [Lin_apply]
  refine Finset.sum_congr rfl fun k _ => ?_
  exact congrArg₂ (fun a b : EReal => a * b) (congrArg (V c main_arg0) (hleft k)) (congrArg (V c main_v0) (hright k))

/-- An index of the result array is in point `t`'s block iff its row is among rows `2000 t … 2000 t + 1999`. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v1).slice (win0_2.rect t)).set ↔ _
  rw [View.set_slice_whole, Rect.mem_set_unit]
  exact Iff.rfl

/-- The 50 blocks tile the result: row `p` is in the block of point `p / 2000`. -/
theorem blocks_cover (i : S100000x128.Idx) :
    ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  refine ⟨⟨(i 0).val / 2000, by omega⟩, flush0_2 _, ?_⟩
  rw [mem_block]
  obtain ⟨-, -, -, -, e4, e5⟩ := index_facts ⟨(i 0).val / 2000, by omega⟩
  intro a
  match a with
  | ⟨0, _⟩ =>
    show win0_2.index ⟨(i 0).val / 2000, _⟩ (0 : Fin 2) * 2000 ≤ (i 0).val ∧ (i 0).val < win0_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, _⟩ (1 : Fin 2) * 128 ≤ (i 1).val ∧ (i 1).val < win0_2.index ⟨(i 0).val / 2000, _⟩ (1 : Fin 2) * 128 + 128
    rw [e5]; omega

/-- The result array after the region is `Lin` of the two arrays the region reads, whatever the entry contents. -/
theorem final (c : Dev nD) : (dat0 V c).arrAt 2 cfg0.N = Lin (V c main_arg0) (V c main_v0) :=
  (dat0 V c).arrAt_eq_of_cover 2 (Lin (V c main_arg0) (V c main_v0)) (fun t _ => flushed_eq V c t) blocks_cover

end Cert.KernelIdeal.RegionLin

end
-- ==== Proof.RegionTwist.lean ====
/-
  The second kernel region, read as a value: whatever the buffers hold when the region is entered, the array it leaves is the
  twist `Twist` of the array it reads.

  Grid point `t` (of 50) works on rows `2000 t … 2000 t + 1999`: it loads the block, multiplies channel `j` by `+1` when
  `j < 64` and by `−1` otherwise (a lane counter compared with 64 selects between the two constants), rotates the 128 channels
  by 64, and stores the block, which is written back to the same rows of the result.  A rotation by 64 of 128 channels reads,
  at channel `q`, channel `(q + 128 − 64) mod 128 = (q + 64) mod 128`.  So entry `(r, q)` of the stored block is
  `a (2000 t + r, q') · σ q'` with `q' = (q + 64) mod 128`: the restriction of `Twist a` to the block, and the 50 blocks tile
  the result.
-/
import proofs.«126326_j15779709845910_1_alg».proof.Proof.Gen.KernelIdeal.Frame
import proofs.«126326_j15779709845910_1_alg».proof.Proof.Spec
import Idealize.ShloMosaic.Lib.Pipeline.Value
import Idealize.ShloMosaic.Lib.ValueIdx
import Idealize.ShloMosaic.Lib.KernelVsHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionTwist

open Cert.KernelIdeal Cert.KernelIdeal.Gen Cert.Spec

variable (V : (c : Dev nD) → (b : Ref sig .tc) → Buf (Elt Ideal) ((c : Thread nD τ).loc b))

theorem zero_offsets : (![0, 0] : Fin 2 → Nat) = fun _ => 0 := funext fun a => by fin_cases a <;> rfl

/-- The lane counter compared with 64, as a signed 32-bit comparison, says whether the channel is in the first half. -/
theorem lane_lt_half : ∀ j : Fin 128, IntOp.cmpi .slt (BitVec.ofNat 32 j.val) 64#32 = if j.val < 64 then 1#1 else 0#1 := by
  decide +kernel

/-- The selected sign of channel `j`. -/
theorem sign_select (j : Fin 128) :
    Scalar.select (IntOp.cmpi .slt (BitVec.ofNat 32 j.val) 64#32) (Ideal.ofBits .f32 0x3F800000#32) (Ideal.ofBits .f32 0xBF800000#32)
      = sgn j := by
  rw [lane_lt_half j]
  unfold sgn
  split
  · exact select_one _ _
  · exact select_zero _ _

/-- The stored block at an entry: the loaded block at the rotated channel, times that channel's sign. -/
theorem twisted_apply (x0 : Vec Ideal S2000x128 .f32) (p : Fin 2000) (q : Fin 128) :
    k1_pay1 (F := Ideal) x0 (ix2 p q) = x0 (ix2 p (flip q)) * sgn (flip q) := by
  unfold k1_pay1
  refine (dynamicRotate_apply (1 : Fin 2) 64#32 _ rotates_S2000x128_d1 (ix2 p q) (ix2 p (flip q)) (fun b => ?_)).trans ?_
  · match b with
    | ⟨0, _⟩ => rfl
    | ⟨1, _⟩ => show (q.val + 64) % 128 = (q.val + 128 - 64 % 128) % 128; omega
  · rw [shapeCast_self]
    show x0 (ix2 p (flip q)) * Scalar.select (IntOp.cmpi .slt (iota .tc S2000x128 32 [1] iota_S2000x128_d1_w32 (ix2 p (flip q))) 64#32)
        (Ideal.ofBits .f32 0x3F800000#32) (Ideal.ofBits .f32 0xBF800000#32) = _
    rw [iota_single_apply]
    exact congrArg (x0 (ix2 p (flip q)) * ·) (sign_select (flip q))

/-- The printed index maps over the grid: the read block and the written block are both block `t` of rows. -/
theorem index_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of `Twist` of the array the region reads. -/
theorem flushed_eq (c : Dev nD) (t : Fin cfg1.N) :
    (dat1 V c).flushed 1 t = ((cfg1.win 1).blk t).view.read (Elt Ideal) (Twist (V c main_v41)) := by
  show (cfg1.win 1).cut (grid1.coords t) ((dat1 V c).after 1 t) = _
  rw [after1_1]
  unfold out1_1
  rw [View.canon_unit_zero zero_offsets]
  simp only [View.ld_unit_zero (S := S2000x128) zero_offsets]
  obtain ⟨e0, e1, e2, e3⟩ := index_facts t
  funext j
  obtain ⟨p, q, rfl⟩ : ∃ (p : Fin 2000) (q : Fin 128), j = ix2 p q := ⟨j 0, j 1, eq_ix2 j⟩
  refine (twisted_apply (iblk1 V c 0 t) p q).trans ?_
  have hN : cfg1.N = 50 := N_1
  have hp : 2000 * t.val + p.val < 100000 := by have := t.isLt; have := p.isLt; omega
  have hout : ((cfg1.win 1).blk t).view.emb (ix2 p q) = ix2 (⟨2000 * t.val + p.val, hp⟩ : Fin 100000) q := by
    funext a; apply Fin.ext
    match a with
    | ⟨0, _⟩ => show win1_1.index t (0 : Fin 2) * 2000 + 1 * p.val = 2000 * t.val + p.val; omega
    | ⟨1, _⟩ => show win1_1.index t (1 : Fin 2) * 128 + 1 * q.val = q.val; omega
  have hin : ((cfg1.win 0).blk t).view.emb (ix2 p (flip q)) = ix2 (⟨2000 * t.val + p.val, hp⟩ : Fin 100000) (flip q) := by
    funext a; apply Fin.ext
    match a with
    | ⟨0, _⟩ => show win1_0.index t (0 : Fin 2) * 2000 + 1 * p.val = 2000 * t.val + p.val; omega
    | ⟨1, _⟩ => show win1_0.index t (1 : Fin 2) * 128 + 1 * (flip q).val = (flip q).val; omega
  refine Eq.trans ?_ (congrArg (Twist (V c main_v41)) hout).symm
  rw [Twist_apply]
  exact congrArg (fun z : EReal => z * sgn (flip q)) (congrArg (V c main_v41) hin)

/-- An index of the result array is in point `t`'s block iff its row is among rows `2000 t … 2000 t + 1999`. -/
theorem mem_block (t : Fin cfg1.N) (i : S100000x128.Idx) :
    i ∈ ((cfg1.win 1).blk t).view.set ↔ ∀ a : Fin 2, win1_1.index t a * S2000x128.size a ≤ (i a).val ∧ (i a).val < win1_1.index t a * S2000x128.size a + S2000x128.size a := by
  show i ∈ ((View.whole main_v42).slice (win1_1.rect t)).set ↔ _
  rw [View.set_slice_whole, Rect.mem_set_unit]
  exact Iff.rfl

/-- The 50 blocks tile the result: row `p` is in the block of point `p / 2000`. -/
theorem blocks_cover (i : S100000x128.Idx) :
    ∃ t : Fin cfg1.N, (cfg1.win 1).flush t = true ∧ i ∈ ((cfg1.win 1).blk t).view.set := by
  have hN : cfg1.N = 50 := N_1
  have hi0 : (i 0).val < 100000 := (i 0).isLt
  have hi1 : (i 1).val < 128 := (i 1).isLt
  refine ⟨⟨(i 0).val / 2000, by omega⟩, flush1_1 _, ?_⟩
  rw [mem_block]
  obtain ⟨-, -, e2, e3⟩ := index_facts ⟨(i 0).val / 2000, by omega⟩
  intro a
  match a with
  | ⟨0, _⟩ =>
    show win1_1.index ⟨(i 0).val / 2000, _⟩ (0 : Fin 2) * 2000 ≤ (i 0).val ∧ (i 0).val < win1_1.index ⟨(i 0).val / 2000, _⟩ (0 : Fin 2) * 2000 + 2000
    rw [e2]; show (i 0).val / 2000 * 2000 ≤ (i 0).val ∧ (i 0).val < (i 0).val / 2000 * 2000 + 2000; omega
  | ⟨1, _⟩ =>
    show win1_1.index ⟨(i 0).val / 2000, _⟩ (1 : Fin 2) * 128 ≤ (i 1).val ∧ (i 1).val < win1_1.index ⟨(i 0).val / 2000, _⟩ (1 : Fin 2) * 128 + 128
    rw [e3]; omega

/-- The result array after the region is `Twist` of the array the region reads, whatever the entry contents. -/
theorem final (c : Dev nD) : (dat1 V c).arrAt 1 cfg1.N = Twist (V c main_v41) :=
  (dat1 V c).arrAt_eq_of_cover 1 (Twist (V c main_v41)) (fun t _ => flushed_eq V c t) blocks_cover

end Cert.KernelIdeal.RegionTwist

end
-- ==== Proof.HostSide.lean ====
/-
  The idealized kernel's host operations, read as values, and its result as one function of the arguments.

  Between the two kernel regions the program runs the message-passing host operations on the first region's result `h` and the
  edge list; they are the operations of `Mid`, so the second region is entered with its input array at `Mid h e`.  Before the
  first region the one host operation transposes the weight.  With the two regions read as `Lin` and `Twist` (whatever the
  contents they are entered with), the result buffer ends at `Twist (Mid (Lin x wᵀ) e)`.
-/
import proofs.«126326_j15779709845910_1_alg».proof.Proof.Gen.KernelIdeal.Frame
import proofs.«126326_j15779709845910_1_alg».proof.Proof.RegionLin
import proofs.«126326_j15779709845910_1_alg».proof.Proof.RegionTwist
import proofs.«126326_j15779709845910_1_alg».proof.Proof.Mid
import proofs.«126326_j15779709845910_1_alg».proof.Proof.Spec
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen Cert.Spec Cert.Mid

variable (m : (ℓ : Loc nD τ sig) → Buf (Elt Ideal) ℓ) (ρ : Dev nD → PrngReg)

/-- The weight transposed, as the kernel's one host operation before the first region spells it. -/
def wT (w : (⟨S128x256, .f32⟩ : BufTy).Contents (Elt Ideal)) : (⟨S256x128, .f32⟩ : BufTy).Contents (Elt Ideal) :=
  transpose S256x128 [1, 0] w transposes_S128x256_S256x128_1_0

/-! The host operations between the regions, one stretch at a time, from ANY buffer contents `U`. -/

/-- First stretch: the two index vectors are the reference's stages of the edge list, -/
theorem row_of (U : Valuation τ sig (Elt Ideal)) :
    StableHlo.after hostOps1 U (Proc.devRef .tc main_v3) = Cert.ReferenceIdeal.ReadP.val_main_v3 (F := Ideal) (U (Proc.devRef .tc main_arg1)) := by
  after_results_simp
  rfl
theorem col_of (U : Valuation τ sig (Elt Ideal)) :
    StableHlo.after hostOps1 U (Proc.devRef .tc main_v5) = Cert.ReferenceIdeal.ReadP.val_main_v5 (F := Ideal) (U (Proc.devRef .tc main_arg1)) := by
  after_results_simp
  rfl
/-- the comparison `deg > 0` and `rsqrt deg` are the reference's stages, -/
theorem positive_of (U : Valuation τ sig (Elt Ideal)) :
    StableHlo.after hostOps1 U (Proc.devRef .tc main_v11) = Cert.ReferenceIdeal.ReadP.val_main_v11 (F := Ideal) (U (Proc.devRef .tc main_arg1)) := by
  after_results_simp
  rfl
theorem rsqrt_of (U : Valuation τ sig (Elt Ideal)) :
    StableHlo.after hostOps1 U (Proc.devRef .tc main_v12) = Cert.ReferenceIdeal.ReadP.val_main_v12 (F := Ideal) (U (Proc.devRef .tc main_arg1)) := by
  after_results_simp
  rfl
theorem zero_of (U : Valuation τ sig (Elt Ideal)) :
    StableHlo.after hostOps1 U (Proc.devRef .tc main_cst_2) = Cert.ReferenceIdeal.ReadP.val_main_cst_2 (F := Ideal) := by
  after_results_simp
  rfl
/-- and the first region's result is not touched. -/
theorem first_keeps (U : Valuation τ sig (Elt Ideal)) :
    StableHlo.after hostOps1 U (Proc.devRef .tc main_v1) = U (Proc.devRef .tc main_v1) := by
  after_results_simp

/-- Second stretch (`where`): the normalising vector from the comparison, the `rsqrt` and the zero; -/
theorem where_of (U : Valuation τ sig (Elt Ideal)) :
    StableHlo.after hostOps1_1 U (Proc.devRef .tc main_v13)
      = select (U (Proc.devRef .tc main_v11)) (U (Proc.devRef .tc main_v12))
          (broadcastInDim S100000 ![] bcast_S_S100000 (id (U (Proc.devRef .tc main_cst_2)))) := by
  after_results_simp
  rfl
/-- the index vectors and the first region's result are not touched. -/
theorem where_keeps_h (U : Valuation τ sig (Elt Ideal)) :
    StableHlo.after hostOps1_1 U (Proc.devRef .tc main_v1) = U (Proc.devRef .tc main_v1) := by
  after_results_simp
theorem where_keeps_row (U : Valuation τ sig (Elt Ideal)) :
    StableHlo.after hostOps1_1 U (Proc.devRef .tc main_v3) = U (Proc.devRef .tc main_v3) := by
  after_results_simp
theorem where_keeps_col (U : Valuation τ sig (Elt Ideal)) :
    StableHlo.after hostOps1_1 U (Proc.devRef .tc main_v5) = U (Proc.devRef .tc main_v5) := by
  after_results_simp

set_option maxHeartbeats 4000000 in
/-- Third stretch: the gathers, the scaling and the scatter-add are `Aggregate`. -/
theorem aggregate_core (U : Valuation τ sig (Elt Ideal)) :
    StableHlo.after hostOps1_2 U (Proc.devRef .tc main_v41)
      = Aggregate (U (Proc.devRef .tc main_v1)) (U (Proc.devRef .tc main_v3)) (U (Proc.devRef .tc main_v5)) (U (Proc.devRef .tc main_v13)) := by
  after_results_simp
  rfl

/-- From any buffer contents `U`, the three stretches of host operations between the regions leave the second region's input
    array at `Mid` of `U`'s first-region result and `U`'s edge list. -/
theorem aggregate_of (U : Valuation τ sig (Elt Ideal)) :
    StableHlo.after hostOps1_2 (StableHlo.after hostOps1_1 (StableHlo.after hostOps1 U)) (Proc.devRef .tc main_v41)
      = Mid (U (Proc.devRef .tc main_v1)) (U (Proc.devRef .tc main_arg1)) := by
  rw [aggregate_core, where_keeps_h, where_keeps_row, where_keeps_col, where_of, first_keeps, row_of, col_of, positive_of, rsqrt_of, zero_of]
  rfl

/-- The value the idealized kernel computes, as one function of its three argument arrays. -/
def result (x : (⟨S100000x256, .f32⟩ : BufTy).Contents (Elt Ideal)) (e : (⟨S2x1600000, .i32⟩ : BufTy).Contents (Elt Ideal))
    (w : (⟨S128x256, .f32⟩ : BufTy).Contents (Elt Ideal)) : (⟨S100000x128, .f32⟩ : BufTy).Contents (Elt Ideal) :=
  Twist (Mid (Lin x (wT w)) e)

/-- The first region is entered with the features as launched and the weight transposed, and leaves `Lin` of them. -/
theorem transformed (c : Dev nD) :
    W2 m ρ c (Proc.devRef .tc main_v1) = Lin (m ((c : Thread nD τ).loc main_arg0)) (wT (m ((c : Thread nD τ).loc main_arg2))) := by
  refine (W2_arr m ρ c 2).trans ?_
  rw [RegionLin.final (V1 m ρ) c]
  -- the one host operation before the region writes the transposed weight and nothing else
  rfl

/-- The edge list is as launched when the host operations between the regions read it. -/
theorem edges_kept (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

/-- The result buffer's final contents: the twist of the aggregate of the transformed features. -/
theorem result_eq (c : Dev nD) :
    W6 m ρ c (Proc.devRef .tc main_v42)
      = result (m ((c : Thread nD τ).loc main_arg0)) (m ((c : Thread nD τ).loc main_arg1)) (m ((c : Thread nD τ).loc main_arg2)) := by
  refine (W6_arr m ρ c 1).trans ?_
  rw [RegionTwist.final (V5 m ρ) c]
  unfold result
  refine congrArg Twist ?_
  show StableHlo.after hostOps1_2 (StableHlo.after hostOps1_1 (StableHlo.after hostOps1 (W2 m ρ c))) (Proc.devRef .tc main_v41) = _
  rw [aggregate_of, transformed, edges_kept]

end Cert.KernelIdeal.HostSide

end
-- ==== Proof.lean ====
/-
  The certificate of a graph-convolution step: a dense transform, a normalised message-passing aggregation, and a
  "complex to real" twist of the channels, computed by a two-kernel program and by a plain reference.

  THE VALUE.  With node features `x : [100000, 256]`, a weight `w : [128, 256]` and an edge list `e : [2, 1600000]`, both programs
  compute `Twist (Mid (Lin x wᵀ) e)`:
    • `Lin x wᵀ`, entry `(p, q) = ∑ k, x (p, k) · w (q, k)`.  The kernel computes it 2000 rows at a time, each block a product
      into a zero accumulator of operands narrowed to bf16; the reference by one `dot_general`.  Over the extended reals the
      narrowing is the identity and each block product is the same sum, so block `t` is rows `2000 t …` of the one array.
    • `Mid h e`: the in-degrees, the edge weights `deg⁻¹ᐟ²[row] · deg⁻¹ᐟ²[col]`, the gathered and scaled messages and their
      scatter-add.  Both programs run the same host operations for it, so it is one function applied to each program's `h` and
      is never opened.
    • `Twist a`, entry `(p, q) = a (p, q') · σ q'` with `q' = (q + 64) mod 128`, `σ = +1` on channels `< 64` and `−1` on the
      rest.  The kernel multiplies by a selected sign and rotates the lanes by 64, 2000 rows at a time; the reference multiplies by
      a concatenation of ones and negated ones and swaps the two halves of the channels.
  No law that could fail at an infinity is used (only that each side spells the same sums and products), so the precondition
  that the inputs are finite is not opened.

  THE CLAIMS.  The two kernels' frames are the generated ones.  The reference's frame is its run with the result dropped.  The
  idealization rewrote nothing, so `preserves` is trivial.  `algebraic`: the kernel's run ends with the result buffer at the value
  above (its run with the result named, the two regions read as `Lin` and `Twist`, the host operations between them as `Mid`),
  the reference's run ends at its last stage, which is the same function of arguments that agree.
-/
import proofs.«126326_j15779709845910_1_alg».proof.Defs
import proofs.«126326_j15779709845910_1_alg».proof.Proof.Gen.Kernel
import proofs.«126326_j15779709845910_1_alg».proof.Proof.Gen.Kernel.Skeleton
import proofs.«126326_j15779709845910_1_alg».proof.Proof.Gen.Kernel.Launch
import proofs.«126326_j15779709845910_1_alg».proof.Proof.Gen.Kernel.Points
import proofs.«126326_j15779709845910_1_alg».proof.Proof.Gen.Kernel.Frame
import proofs.«126326_j15779709845910_1_alg».proof.Proof.Gen.KernelIdeal
import proofs.«126326_j15779709845910_1_alg».proof.Proof.Gen.KernelIdeal.Skeleton
import proofs.«126326_j15779709845910_1_alg».proof.Proof.Gen.KernelIdeal.Launch
import proofs.«126326_j15779709845910_1_alg».proof.Proof.Gen.KernelIdeal.Points
import proofs.«126326_j15779709845910_1_alg».proof.Proof.Gen.KernelIdeal.Frame
import proofs.«126326_j15779709845910_1_alg».proof.Proof.Gen.ReferenceIdeal
import proofs.«126326_j15779709845910_1_alg».proof.Proof.Gen.Pre_finite_inputs
import proofs.«126326_j15779709845910_1_alg».proof.Proof.RefRun
import proofs.«126326_j15779709845910_1_alg».proof.Proof.RefRead
import proofs.«126326_j15779709845910_1_alg».proof.Proof.RefRunValue
import proofs.«126326_j15779709845910_1_alg».proof.Proof.RefValue
import proofs.«126326_j15779709845910_1_alg».proof.Proof.KernelRun
import proofs.«126326_j15779709845910_1_alg».proof.Proof.HostSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.RunValue.run (F := Ideal) m ρ)

/-- The idealization rewrote no operation. -/
theorem preserves : Cert.preserves_Kernel_KernelIdeal := trivial

/-- From arguments that agree, both idealized programs end with the result at `Twist (Mid (Lin x wᵀ) e)`. -/
theorem algebraic : Cert.algebraic_KernelIdeal_ReferenceIdeal := by
  intro m ρ m' ρ' _ hagree
  refine ⟨fun c => Cert.KernelIdeal.HostSide.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.HostSide.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.RunValue.run (F := Ideal) m' ρ')
    rw [(hagree c).1, (hagree c).2.1, (hagree c).2.2, Cert.RefValue.ref_result]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
